-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x784 : Shape := ⟨2, ![16384, 784]⟩
abbrev S2048x784 : Shape := ⟨2, ![2048, 784]⟩
abbrev S2048 : Shape := ⟨1, ![2048]⟩
abbrev S2048x2048 : Shape := ⟨2, ![2048, 2048]⟩
abbrev S10x2048 : Shape := ⟨2, ![10, 2048]⟩
abbrev S10 : Shape := ⟨1, ![10]⟩
abbrev S_ : Shape := ⟨0, ![]⟩

class Facts : Prop where
  bcast_S_S16384x784 : S_.BroadcastsInDim S16384x784 (![] : Fin 0 → Fin S16384x784.rank)
  reducesTo_S16384x784_S_d0_1 : S16384x784.ReducesTo [0, 1] S_
  h_S_ : 0 < S_.numel
  bcast_S_S2048x784 : S_.BroadcastsInDim S2048x784 (![] : Fin 0 → Fin S2048x784.rank)
  reducesTo_S2048x784_S_d0_1 : S2048x784.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S10x2048 : S_.BroadcastsInDim S10x2048 (![] : Fin 0 → Fin S10x2048.rank)
  reducesTo_S10x2048_S_d0_1 : S10x2048.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg7 : FVec F S2048x2048 .f32) (main_arg8 : FVec F S2048 .f32) (main_arg9 : FVec F S10x2048 .f32) (main_arg10 : FVec F S10 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S10x2048 .f32 := Host.absf main_arg9
  let main_cst_16 : FVec F S_ .f32 := constant S_ .f32 0x7F800000#32
  let main_v45 : FVec F S10x2048 .f32 := broadcastInDim S10x2048 ![] bcast_S_S10x2048 main_cst_16
  let main_v46 : IVec S10x2048 1 := cmpf .olt main_v44 main_v45
  let main_c_17 : IVec S_ 1 := constantI S_ 1 1#1
  let main_v47 : IVec S_ 1 := (fun x v => Host.reduce IntOp.andi x v reducesTo_S10x2048_S_d0_1 h_S_) main_v46 main_c_17
  let main_v48 : IVec S_ 1 := andi main_v43 main_v47
  let main_v49 : FVec F S10 .f32 := Host.absf main_arg10
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg4 : FVec F S2048 .f32) (main_arg5 : FVec F S2048x2048 .f32) (main_arg6 : FVec F S2048 .f32) (main_arg7 : FVec F S2048x2048 .f32) (main_arg8 : FVec F S2048 .f32) (main_arg9 : FVec F S10x2048 .f32) (main_arg10 : FVec F S10 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x784 .f32) (main_arg1 : FVec F S2048x784 .f32) (main_arg2 : FVec F S2048 .f32) (main_arg3 : FVec F S2048x2048 .f32) (main_arg4 : FVec F S2048 .f32) (main_arg5 : FVec F S2048x2048 .f32) (main_arg6 : FVec F S2048 .f32) (main_arg7 : FVec F S2048x2048 .f32) (main_arg8 : FVec F S2048 .f32) (main_arg9 : FVec F S10x2048 .f32) (main_arg10 : FVec F S10 .f32) (main_arg11 : IVec S2048x784 1) (main_arg12 : IVec S2048x2048 1) (main_arg13 : IVec S2048x2048 1) (main_arg14 : IVec S2048x2048 1) : IVec S_ 1 :=
  let main_v0 : FVec F S16384x784 .f32 := Host.absf main_arg0
  let main_cst : FVec F S_ .f32 := constant S_ .f32 0x7F800000#32
  let main_v1 : FVec F S16384x784 .f32 := broadcastInDim S16384x784 ![] bcast_S_S16384x784 main_cst
  let main_v2 : IVec S16384x784 1 := cmpf .olt main_v0 main_v1
  let main_c : IVec S_ 1 := constantI S_ 1 1#1
  let main_v3 : IVec S_ 1 := (fun x v => Host.reduce IntOp.andi x v reducesTo_S16384x784_S_d0_1 h_S_) main_v2 main_c
  let main_v4 : FVec F S2048x784 .f32 := Host.absf main_arg1
  let main_cst_0 : FVec F S_ .f32 := constant S_ .f32 0x7F800000#32
  let main_v5 : FVec F S2048x784 .f32 := broadcastInDim S2048x784 ![] bcast_S_S2048x784 main_cst_0
  let main_v6 : IVec S2048x784 1 := cmpf .olt main_v4 main_v5
  let main_c_1 : IVec S_ 1 := constantI S_ 1 1#1
  let main_v7 : IVec S_ 1 := (fun x v => Host.reduce IntOp.andi x v reducesTo_S2048x784_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_v13 main_v16
-- ==== Kernel.lean ====
abbrev S16384x784 : Shape := ⟨2, ![16384, 784]⟩
abbrev S2048x784 : Shape := ⟨2, ![2048, 784]⟩
abbrev S2048 : Shape := ⟨1, ![2048]⟩
abbrev S2048x2048 : Shape := ⟨2, ![2048, 2048]⟩
abbrev S10x2048 : Shape := ⟨2, ![10, 2048]⟩
abbrev S10 : Shape := ⟨1, ![10]⟩
abbrev S784x2048 : Shape := ⟨2, ![784, 2048]⟩
abbrev S_ : Shape := ⟨0, ![]⟩
abbrev S128x2048 : Shape := ⟨2, ![128, 2048]⟩
abbrev S128 : Shape := ⟨1, ![128]⟩
abbrev S2048x128 : Shape := ⟨2, ![2048, 128]⟩
abbrev S16384x128 : Shape := ⟨2, ![16384, 128]⟩
abbrev S1024x784 : Shape := ⟨2, ![1024, 784]⟩
abbrev S1024x128 : Shape := ⟨2, ![1024, 128]⟩
abbrev S1024x2048 : Shape := ⟨2, ![1024, 2048]⟩
abbrev S1x2048 : Shape := ⟨2, ![1, 2048]⟩
abbrev S1x128 : Shape := ⟨2, ![1, 128]⟩
abbrev S16384x10 : Shape := ⟨2, ![16384, 10]⟩

abbrev nBuf : Space → Nat
  | .hbm => 41
  | .vmem => 14
  | .smem => 0
  | _ => 0

abbrev bufTy : (tb : Table) → Fin (tcTables nBuf tb) → BufTy
  | .hbm, ⟨0, _⟩ => ⟨S16384x784, .f32⟩
  | .hbm, ⟨1, _⟩ => ⟨S2048x784, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S10x2048, .f32⟩
  | .hbm, ⟨10, _⟩ => ⟨S10, .f32⟩
  | .hbm, ⟨11, _⟩ => ⟨S2048x784, .i1⟩
  | .hbm, ⟨12, _⟩ => ⟨S2048x2048, .i1⟩
  | .hbm, ⟨13, _⟩ => ⟨S2048x2048, .i1⟩
  | .hbm, ⟨14, _⟩ => ⟨S2048x2048, .i1⟩
  | .hbm, ⟨15, _⟩ => ⟨S2048x784, .f32⟩
  | .hbm, ⟨16, _⟩ => ⟨S2048x784, .f32⟩
  | .hbm, ⟨17, _⟩ => ⟨S2048x784, .bf16⟩
  | .hbm, ⟨18, _⟩ => ⟨S784x2048, .bf16⟩
  | .hbm, ⟨19, _⟩ => ⟨S2048x2048, .f32⟩
  | .hbm, ⟨20, _⟩ => ⟨S2048x2048, .f32⟩
  | .hbm, ⟨21, _⟩ => ⟨S2048x2048, .bf16⟩
  | .hbm, ⟨22, _⟩ => ⟨S2048x2048, .bf16⟩
  | .hbm, ⟨23, _⟩ => ⟨S2048x2048, .f32⟩
  | .hbm, ⟨24, _⟩ => ⟨S2048x2048, .f32⟩
  | .hbm, ⟨25, _⟩ => ⟨S2048x2048, .bf16⟩
  | .hbm, ⟨26, _⟩ => ⟨S2048x2048, .bf16⟩
  | .hbm, ⟨27, _⟩ => ⟨S2048x2048, .f32⟩
  | .hbm, ⟨28, _⟩ => ⟨S2048x2048, .f32⟩
  | .hbm, ⟨29, _⟩ => ⟨S2048x2048, .bf16⟩
  | .hbm, ⟨30, _⟩ => ⟨S2048x2048, .bf16⟩
  | .hbm, ⟨31, _⟩ => ⟨S_, .i32⟩
  | .hbm, ⟨32, _⟩ => ⟨S_, .f32⟩
  | .hbm, ⟨33, _⟩ => ⟨S128x2048, .f32⟩
  | .hbm, ⟨34, _⟩ => ⟨S_, .i32⟩
  | .hbm, ⟨35, _⟩ => ⟨S_, .f32⟩
  | .hbm, ⟨36, _⟩ => ⟨S128, .f32⟩
  | .hbm, ⟨37, _⟩ => ⟨S128x2048, .bf16⟩
  | .hbm, ⟨38, _⟩ => ⟨S2048x128, .bf16⟩
  | .hbm, ⟨39, _⟩ => ⟨S16384x128, .f32⟩
  | .hbm, ⟨40, _⟩ => ⟨S16384x10, .f32⟩
  | .local _ .vmem, ⟨0, _⟩ => ⟨S1024x784, .f32⟩
  | .local _ .vmem, ⟨1, _⟩ => ⟨S1024x784, .f32⟩
  | .local _ .vmem, ⟨2, _⟩ => ⟨S784x2048, .bf16⟩
  | .local _ .vmem, ⟨3, _⟩ => ⟨S2048x2048, .bf16⟩
  | .local _ .vmem, ⟨4, _⟩ => ⟨S2048x2048, .bf16⟩
  | .local _ .vmem, ⟨5, _⟩ => ⟨S2048x2048, .bf16⟩
  | .local _ .vmem, ⟨6, _⟩ => ⟨S2048x128, .bf16⟩
  | .local _ .vmem, ⟨7, _⟩ => ⟨S2048, .f32⟩
  | .local _ .vmem, ⟨8, _⟩ => ⟨S2048, .f32⟩
  | .local _ .vmem, ⟨9, _⟩ => ⟨S2048, .f32⟩
  | .local _ .vmem, ⟨10, _⟩ => ⟨S2048, .f32⟩
  | .local _ .vmem, ⟨11, _⟩ => ⟨S128, .f32⟩
  | .local _ .vmem, ⟨12, _⟩ => ⟨S1024x128, .f32⟩
  | .local _ .vmem, ⟨13, _⟩ => ⟨S1024x128, .f32⟩
  | _, _ => ⟨S16384x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_call0_v0 : Ref sig .tc := ⟨.hbm, 32, rfl⟩
abbrev main_v16 : Ref sig .tc := ⟨.hbm, 33, rfl⟩
abbrev main_c_0 : Ref sig .tc := ⟨.hbm, 34, rfl⟩
abbrev main_call1_v0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  transposes_S2048x784_S784x2048_1_0 : S2048x784.Transposes [1, 0] S784x2048
  transposes_S2048x2048_S2048x2048_1_0 : S2048x2048.Transposes [1, 0] S2048x2048
  pads_S10x2048_S128x2048_01180_000 : S10x2048.Pads (![0, 0] : Fin 2 → Nat) ![118, 0] ![0, 0] S128x2048
  h_S_ : 0 < S_.numel
  pads_S10_S128_01180 : S10.Pads (![0] : Fin 1 → Nat) ![118] ![0] S128
  transposes_S128x2048_S2048x128_1_0 : S128x2048.Transposes [1, 0] S2048x128
  inb_S1024x784_S1024x784_0_0 : ∀ a, (![0, 0] : Fin 2 → Nat) a + S1024x784.size a ≤ S1024x784.size a
  h_S1024x784 : 0 < S1024x784.numel
  inb_S784x2048_S784x2048_0_0 : ∀ a, (![0, 0] : Fin 2 → Nat) a + S784x2048.size a ≤ S784x2048.size a
  h_S784x2048 : 0 < S784x2048.numel
  shapeCasts_S784x2048_S784x2048 : S784x2048.ShapeCasts S784x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S1024x2048 : S1x2048.Broadcasts S1024x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  slices_S16384x128_S16384x10_0_0 : S16384x128.Slices ![0, 0] S16384x10
  dot_S1024x784_S784x2048_S1024x2048_1_0_0_1_n_n_wf : DotDims.WF S1024x784 S784x2048 S1024x2048 [1] [0] [0] [1] [] []
  dot_S1024x2048_S2048x2048_S1024x2048_1_0_0_1_n_n_wf : DotDims.WF S1024x2048 S2048x2048 S1024x2048 [1] [0] [0] [1] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x784.size a ≤ S16384x784.size a
  hwx0_0 : ∀ i : grid0.Coords, EltTy.bits .f32 = 32 ∨ (Rect.block (s := S16384x784) S1024x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x2048.size a ≤ S784x2048.size a
  hwx0_1 : ∀ i : grid0.Coords, EltTy.bits .bf16 = 32 ∨ (Rect.block (s := S784x2048) S784x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S2048x2048.size a
  hwx0_4 : ∀ i : grid0.Coords, EltTy.bits .bf16 = 32 ∨ (Rect.block (s := S2048x2048) S2048x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S2048x128.size a
  hwx0_5 : ∀ i : grid0.Coords, EltTy.bits .bf16 = 32 ∨ (Rect.block (s := S2048x128) S2048x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048.size a ≤ S2048.size a
  hwx0_6 : ∀ i : grid0.Coords, EltTy.bits .f32 = 32 ∨ (Rect.block (s := S2048) S2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048.size a ≤ S2048.size a
  hwx0_7 : ∀ i : grid0.Coords, EltTy.bits .f32 = 32 ∨ (Rect.block (s := S2048) S2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2048.size a ≤ S2048.size a
  hwx0_8 : ∀ i : grid0.Coords, EltTy.bits .f32 = 32 ∨ (Rect.block (s := S2048) S2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048.size a ≤ S2048.size a
  hwx0_9 : ∀ i : grid0.Coords, EltTy.bits .f32 = 32 ∨ (Rect.block (s := S2048) S2048.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x128.size a ≤ S16384x128.size a
  hwx0_11 : ∀ i : grid0.Coords, EltTy.bits .f32 = 32 ∨ (Rect.block (s := S16384x128) S1024x128.size (cc0_transform_11 i) (hinb0_11 i)).WholeWords (EltTy.packing .f32)

variable [Facts₀]

def dot_S1024x784_S784x2048_S1024x2048_1_0_0_1_n_n : DotDims S1024x784 S784x2048 S1024x2048 where
  lhsContracting := [1]
  rhsContracting := [0]
  lhsNonContracting := [0]
  rhsNonContracting := [1]
  lhsBatch := []
  rhsBatch := []
  wf := dot_S1024x784_S784x2048_S1024x2048_1_0_0_1_n_n_wf
def dot_S1024x2048_S2048x2048_S1024x2048_1_0_0_1_n_n : DotDims S1024x2048 S2048x2048 S1024x2048 where
  lhsContracting := [1]
  rhsContracting := [0]
  lhsNonContracting := [0]
  rhsNonContracting := [1]
  lhsBatch := []
  rhsBatch := []
  wf := dot_S1024x2048_S2048x2048_S1024x2048_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg0) S1024x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S784x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S2048x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S2048x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v17) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v20) S1024x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16384x784 : Shape := ⟨2, ![16384, 784]⟩
abbrev S2048x784 : Shape := ⟨2, ![2048, 784]⟩
abbrev S2048 : Shape := ⟨1, ![2048]⟩
abbrev S2048x2048 : Shape := ⟨2, ![2048, 2048]⟩
abbrev S10x2048 : Shape := ⟨2, ![10, 2048]⟩
abbrev S10 : Shape := ⟨1, ![10]⟩
abbrev S784x2048 : Shape := ⟨2, ![784, 2048]⟩
abbrev S16384x2048 : Shape := ⟨2, ![16384, 2048]⟩
abbrev S1x2048 : Shape := ⟨2, ![1, 2048]⟩
abbrev S_ : Shape := ⟨0, ![]⟩
abbrev S2048x10 : Shape := ⟨2, ![2048, 10]⟩
abbrev S16384x10 : Shape := ⟨2, ![16384, 10]⟩
abbrev S1x10 : Shape := ⟨2, ![1, 10]⟩

abbrev nBuf : Space → Nat
  | .hbm => 60
  | .vmem => 0
  | .smem => 0
  | _ => 0

abbrev bufTy : (tb : Table) → Fin (tcTables nBuf tb) → BufTy
  | .hbm, ⟨0, _⟩ => ⟨S16384x784, .f32⟩
  | .hbm, ⟨1, _⟩ => ⟨S2048x784, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S10x2048, .f32⟩
  | .hbm, ⟨10, _⟩ => ⟨S10, .f32⟩
  | .hbm, ⟨11, _⟩ => ⟨S2048x784, .i1⟩
  | .hbm, ⟨12, _⟩ => ⟨S2048x2048, .i1⟩
  | .hbm, ⟨13, _⟩ => ⟨S2048x2048, .i1⟩
  | .hbm, ⟨14, _⟩ => ⟨S2048x2048, .i1⟩
  | .hbm, ⟨15, _⟩ => ⟨S2048x784, .f32⟩
  | .hbm, ⟨16, _⟩ => ⟨S2048x784, .f32⟩
  | .hbm, ⟨17, _⟩ => ⟨S784x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S_, .f32⟩
  | .hbm, ⟨23, _⟩ => ⟨S16384x2048, .f32⟩
  | .hbm, ⟨24, _⟩ => ⟨S16384x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S16384x2048, .f32⟩
  | .hbm, ⟨29, _⟩ => ⟨S1x2048, .f32⟩
  | .hbm, ⟨30, _⟩ => ⟨S16384x2048, .f32⟩
  | .hbm, ⟨31, _⟩ => ⟨S16384x2048, .f32⟩
  | .hbm, ⟨32, _⟩ => ⟨S_, .f32⟩
  | .hbm, ⟨33, _⟩ => ⟨S16384x2048, .f32⟩
  | .hbm, ⟨34, _⟩ => ⟨S16384x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S16384x2048, .f32⟩
  | .hbm, ⟨39, _⟩ => ⟨S1x2048, .f32⟩
  | .hbm, ⟨40, _⟩ => ⟨S16384x2048, .f32⟩
  | .hbm, ⟨41, _⟩ => ⟨S16384x2048, .f32⟩
  | .hbm, ⟨42, _⟩ => ⟨S_, .f32⟩
  | .hbm, ⟨43, _⟩ => ⟨S16384x2048, .f32⟩
  | .hbm, ⟨44, _⟩ => ⟨S16384x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S16384x2048, .f32⟩
  | .hbm, ⟨49, _⟩ => ⟨S1x2048, .f32⟩
  | .hbm, ⟨50, _⟩ => ⟨S16384x2048, .f32⟩
  | .hbm, ⟨51, _⟩ => ⟨S16384x2048, .f32⟩
  | .hbm, ⟨52, _⟩ => ⟨S_, .f32⟩
  | .hbm, ⟨53, _⟩ => ⟨S16384x2048, .f32⟩
  | .hbm, ⟨54, _⟩ => ⟨S16384x2048, .f32⟩
  | .hbm, ⟨55, _⟩ => ⟨S2048x10, .f32⟩
  | .hbm, ⟨56, _⟩ => ⟨S16384x10, .f32⟩
  | .hbm, ⟨57, _⟩ => ⟨S1x10, .f32⟩
  | .hbm, ⟨58, _⟩ => ⟨S16384x10, .f32⟩
  | .hbm, ⟨59, _⟩ => ⟨S16384x10, .f32⟩
  | _, _ => ⟨S16384x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_call0_cst : Ref sig .tc := ⟨.hbm, 22, rfl⟩
abbrev main_call0_v0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_call1_cst : Ref sig .tc := ⟨.hbm, 32, rfl⟩
abbrev main_call1_v0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call2_cst : Ref sig .tc := ⟨.hbm, 42, rfl⟩
abbrev main_call2_v0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call3_cst : Ref sig .tc := ⟨.hbm, 52, rfl⟩
abbrev main_call3_v0 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩

abbrev nD : Nat := 1
abbrev τ : Topo := Topo.v7x

variable {F : FTy → Type} [FloatOps F]

class Facts₀ : Prop where
  transposes_S2048x784_S784x2048_1_0 : S2048x784.Transposes [1, 0] S784x2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  transposes_S2048x2048_S2048x2048_1_0 : S2048x2048.Transposes [1, 0] S2048x2048
  transposes_S10x2048_S2048x10_1_0 : S10x2048.Transposes [1, 0] S2048x10
  bcast_S10_S1x10_1 : S10.BroadcastsInDim S1x10 (![1] : Fin 1 → Fin S1x10.rank)
  bcast_S1x10_S16384x10_0_1 : S1x10.BroadcastsInDim S16384x10 (![0, 1] : Fin 2 → Fin S16384x10.rank)
  dot_S16384x784_S784x2048_S16384x2048_1_0_0_1_n_n_wf : DotDims.WF S16384x784 S784x2048 S16384x2048 [1] [0] [0] [1] [] []
  dot_S16384x2048_S2048x2048_S16384x2048_1_0_0_1_n_n_wf : DotDims.WF S16384x2048 S2048x2048 S16384x2048 [1] [0] [0] [1] [] []
  dot_S16384x2048_S2048x10_S16384x10_1_0_0_1_n_n_wf : DotDims.WF S16384x2048 S2048x10 S16384x10 [1] [0] [0] [1] [] []

variable [Facts₀]

def dot_S16384x784_S784x2048_S16384x2048_1_0_0_1_n_n : DotDims S16384x784 S784x2048 S16384x2048 where
  lhsContracting := [1]
  rhsContracting := [0]
  lhsNonContracting := [0]
  rhsNonContracting := [1]
  lhsBatch := []
  rhsBatch := []
  wf := dot_S16384x784_S784x2048_S16384x2048_1_0_0_1_n_n_wf
def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf
def dot_S16384x2048_S2048x10_S16384x10_1_0_0_1_n_n : DotDims S16384x2048 S2048x10 S16384x10 where
  lhsContracting := [1]
  rhsContracting := [0]
  lhsNonContracting := [0]
  rhsNonContracting := [1]
  lhsBatch := []
  rhsBatch := []
  wf := dot_S16384x2048_S2048x10_S16384x10_1_0_0_1_n_n_wf

class Facts : Prop extends Facts₀ where

variable [Facts]
-- ==== Proof.Mlp.lean ====
/-
  The function both programs compute, written once on the extended reals: a five-layer perceptron applied to each
  row of the input matrix. A layer's unit `n` holds `∑ₖ hₖ · w n k + bₙ`; the four hidden layers pass that through
  `max · 0`; the last layer does not. Nothing here depends on how a weight matrix is laid out in memory: a layer
  takes its weights as a function of the unit `n` and the input coordinate `k`.
-/
import Idealize.ShloMosaic.PureOps.Ideal
import Idealize.ShloMosaic.Lib.ValueIdx

noncomputable section

namespace Cert.Mlp

open Idealize.ShloMosaic Idealize.ShloMosaic.ValueIdx

/-- Unit `n` of a dense layer: the inner product of the input row `h` with the unit's weights, plus its bias. -/
def dense {K N : ℕ} (w : Fin N → Fin K → EReal) (b : Fin N → EReal) (h : Fin K → EReal) (n : Fin N) : EReal :=
  (∑ k : Fin K, h k * w n k) + b n

/-- The rectifier: the larger of `z` and the value of the zero word. -/
def relu (z : EReal) : EReal := max z (Ideal.ofBits .f32 0x00000000#32)

/-- A weight matrix under its sparsity mask, read at unit `n` and input coordinate `k`: the weight times the
    mask bit's value as a number. -/
def masked {N K : ℕ} (W : (⟨2, ![N, K]⟩ : Shape).Idx → EReal) (msk : (⟨2, ![N, K]⟩ : Shape).Idx → BitVec 1)
    (n : Fin N) (k : Fin K) : EReal :=
  W (ix2 n k) * FloatOps.uitofp (F := Ideal) .f32 (msk (ix2 n k))

/-- The fourth hidden layer's activations of one input row. -/
def hidden {D H : ℕ} (w1 : Fin H → Fin D → EReal) (b1 : Fin H → EReal) (w2 : Fin H → Fin H → EReal) (b2 : Fin H → EReal)
    (w3 : Fin H → Fin H → EReal) (b3 : Fin H → EReal) (w4 : Fin H → Fin H → EReal) (b4 : Fin H → EReal)
    (x : Fin D → EReal) : Fin H → EReal :=
  fun n => relu (dense w4 b4 (fun k => relu (dense w3 b3 (fun k => relu (dense w2 b2
    (fun k => relu (dense w1 b1 x k)) k)) k)) n)

/-- The network's output row for one input row. -/
def net {D H N : ℕ} (w1 : Fin H → Fin D → EReal) (b1 : Fin H → EReal) (w2 : Fin H → Fin H → EReal) (b2 : Fin H → EReal)
    (w3 : Fin H → Fin H → EReal) (b3 : Fin H → EReal) (w4 : Fin H → Fin H → EReal) (b4 : Fin H → EReal)
    (w5 : Fin N → Fin H → EReal) (b5 : Fin N → EReal) (x : Fin D → EReal) : Fin N → EReal :=
  dense w5 b5 (hidden w1 b1 w2 b2 w3 b3 w4 b4 x)

/-- A unit of the last layer depends only on that unit's own weights and bias: a last layer widened by further
    units (whatever their weights) agrees with the narrow one on the units they share. -/
theorem dense_congr_unit {K N N' : ℕ} (w : Fin N → Fin K → EReal) (b : Fin N → EReal) (w' : Fin N' → Fin K → EReal)
    (b' : Fin N' → EReal) (h : Fin K → EReal) (n : Fin N) (n' : Fin N') (hw : ∀ k, w' n' k = w n k) (hb : b' n' = b n) :
    dense w' b' h n' = dense w b h n := by
  unfold dense
  rw [hb]
  exact congrArg (· + b n) (Finset.sum_congr rfl fun k _ => by rw [hw k])

/-- The whole result: entry `(r, j)` is unit `j` of the network's output for row `r` of `x`, the four hidden
    layers' weights under their masks. -/
def G (x : (⟨2, ![16384, 784]⟩ : Shape).Idx → EReal)
    (W1 : (⟨2, ![2048, 784]⟩ : Shape).Idx → EReal) (b1 : (⟨1, ![2048]⟩ : Shape).Idx → EReal)
    (W2 : (⟨2, ![2048, 2048]⟩ : Shape).Idx → EReal) (b2 : (⟨1, ![2048]⟩ : Shape).Idx → EReal)
    (W3 : (⟨2, ![2048, 2048]⟩ : Shape).Idx → EReal) (b3 : (⟨1, ![2048]⟩ : Shape).Idx → EReal)
    (W4 : (⟨2, ![2048, 2048]⟩ : Shape).Idx → EReal) (b4 : (⟨1, ![2048]⟩ : Shape).Idx → EReal)
    (W5 : (⟨2, ![10, 2048]⟩ : Shape).Idx → EReal) (b5 : (⟨1, ![10]⟩ : Shape).Idx → EReal)
    (m1 : (⟨2, ![2048, 784]⟩ : Shape).Idx → BitVec 1) (m2 m3 m4 : (⟨2, ![2048, 2048]⟩ : Shape).Idx → BitVec 1) :
    (⟨2, ![16384, 10]⟩ : Shape).Idx → EReal := fun i =>
  net (masked W1 m1) (fun n => b1 (ix1 n)) (masked W2 m2) (fun n => b2 (ix1 n)) (masked W3 m3) (fun n => b3 (ix1 n))
    (masked W4 m4) (fun n => b4 (ix1 n)) (fun n k => W5 (ix2 n k)) (fun n => b5 (ix1 n)) (fun k => x (ix2 (i 0) k)) (i 1)

/-- The result at `(r, j)`, its coordinates named. -/
theorem G_apply (x : (⟨2, ![16384, 784]⟩ : Shape).Idx → EReal)
    (W1 : (⟨2, ![2048, 784]⟩ : Shape).Idx → EReal) (b1 : (⟨1, ![2048]⟩ : Shape).Idx → EReal)
    (W2 : (⟨2, ![2048, 2048]⟩ : Shape).Idx → EReal) (b2 : (⟨1, ![2048]⟩ : Shape).Idx → EReal)
    (W3 : (⟨2, ![2048, 2048]⟩ : Shape).Idx → EReal) (b3 : (⟨1, ![2048]⟩ : Shape).Idx → EReal)
    (W4 : (⟨2, ![2048, 2048]⟩ : Shape).Idx → EReal) (b4 : (⟨1, ![2048]⟩ : Shape).Idx → EReal)
    (W5 : (⟨2, ![10, 2048]⟩ : Shape).Idx → EReal) (b5 : (⟨1, ![10]⟩ : Shape).Idx → EReal)
    (m1 : (⟨2, ![2048, 784]⟩ : Shape).Idx → BitVec 1) (m2 m3 m4 : (⟨2, ![2048, 2048]⟩ : Shape).Idx → BitVec 1)
    (r : Fin 16384) (j : Fin 10) :
    G x W1 b1 W2 b2 W3 b3 W4 b4 W5 b5 m1 m2 m3 m4 (ix2 r j)
      = net (masked W1 m1) (fun n => b1 (ix1 n)) (masked W2 m2) (fun n => b2 (ix1 n)) (masked W3 m3)
          (fun n => b3 (ix1 n)) (masked W4 m4) (fun n => b4 (ix1 n)) (fun n k => W5 (ix2 n k)) (fun n => b5 (ix1 n))
          (fun k => x (ix2 r k)) j := rfl

end Cert.Mlp

end
-- ==== Proof.RefValue.lean ====
/-
  The reference program's result, read entry by entry, is the five-layer network of the specification applied to
  each row of the input: each stage of the reference is read at an index from the stages before it, a layer at a time.
-/
import proofs.«155862_j77343771066811_2_alg».proof.Proof.Gen.ReferenceIdeal.Read
import proofs.«155862_j77343771066811_2_alg».proof.Proof.Mlp

noncomputable section

namespace Cert.ReferenceIdeal.RefValue

open Cert.ReferenceIdeal Cert.ReferenceIdeal.Gen Cert.ReferenceIdeal.Read Cert.Mlp
open Idealize.ShloMosaic Idealize.ShloMosaic.ValueIdx

/-- Two indices of a matrix with the same two coordinates are equal. -/
macro "idx2_eq" : tactic => `(tactic| (funext a; apply Fin.ext; match a with | ⟨0, _⟩ => rfl | ⟨1, _⟩ => rfl))
/-- Two indices of a vector with the same coordinate are equal. -/
macro "idx1_eq" : tactic => `(tactic| (funext a; apply Fin.ext; match a with | ⟨0, _⟩ => rfl))

/-! ## The reference's stages, one layer at a time

Each hidden layer of the reference is four host operations read at entry `(r, n)`: the product of the activations
with the transposed masked weights (a sum over the contraction coordinate), the bias row broadcast over the
batch, their sum, and the larger of that and a broadcast zero. Read at `(r, n)` the transposed masked weight at
`(k, n)` is the masked weight at `(n, k)`, and the broadcast bias is the bias at `n`. -/

variable (x0 : S16384x784.Idx → EReal) (x1 : S2048x784.Idx → EReal) (x2 : S2048.Idx → EReal)
  (x3 : S2048x2048.Idx → EReal) (x4 : S2048.Idx → EReal) (x5 : S2048x2048.Idx → EReal) (x6 : S2048.Idx → EReal)
  (x7 : S2048x2048.Idx → EReal) (x8 : S2048.Idx → EReal) (x9 : S10x2048.Idx → EReal) (x10 : S10.Idx → EReal)
  (x11 : S2048x784.Idx → BitVec 1) (x12 x13 x14 : S2048x2048.Idx → BitVec 1)

/-- The first hidden layer at `(r, n)`. -/
theorem layer1 (r : Fin 16384) (n : Fin 2048) :
    val_main_v7 (F := Ideal) x0 x1 x2 x11 (ix2 r n)
      = relu (dense (masked x1 x11) (fun n => x2 (ix1 n)) (fun k => x0 (ix2 r k)) n) := by
  rw [val_main_v7_apply, val_main_v6_apply, val_main_v3_apply, val_main_v5_apply, val_main_v4_apply,
    val_main_call0_v0_apply, val_main_call0_cst_apply]
  simp only [val_main_v2_apply, val_main_v1_apply, val_main_v0_apply]
  have e1 : ∀ k, lidx_main_v3 (ix2 r n) k = ix2 r k := fun k => by idx2_eq
  have e2 : ∀ k, idx_main_v2 (ridx_main_v3 (ix2 r n) k) = ix2 n k := fun k => by idx2_eq
  have e3 : idx_main_v4 (idx_main_v5 (ix2 r n)) = ix1 n := by idx1_eq
  simp only [e1, e2, e3]
  rfl

/-- The second hidden layer at `(r, n)`, over the first layer's row `r`. -/
theorem layer2 (r : Fin 16384) (n : Fin 2048) :
    val_main_v15 (F := Ideal) x0 x1 x2 x3 x4 x11 x12 (ix2 r n)
      = relu (dense (masked x3 x12) (fun n => x4 (ix1 n)) (fun k => val_main_v7 (F := Ideal) x0 x1 x2 x11 (ix2 r k)) n) := by
  rw [val_main_v15_apply, val_main_v14_apply, val_main_v11_apply, val_main_v13_apply, val_main_v12_apply,
    val_main_call1_v0_apply, val_main_call1_cst_apply]
  simp only [val_main_v10_apply, val_main_v9_apply, val_main_v8_apply]
  have e1 : ∀ k, lidx_main_v11 (ix2 r n) k = ix2 r k := fun k => by idx2_eq
  have e2 : ∀ k, idx_main_v10 (ridx_main_v11 (ix2 r n) k) = ix2 n k := fun k => by idx2_eq
  have e3 : idx_main_v12 (idx_main_v13 (ix2 r n)) = ix1 n := by idx1_eq
  simp only [e1, e2, e3]
  rfl

/-- The third hidden layer at `(r, n)`, over the second layer's row `r`. -/
theorem layer3 (r : Fin 16384) (n : Fin 2048) :
    val_main_v23 (F := Ideal) x0 x1 x2 x3 x4 x5 x6 x11 x12 x13 (ix2 r n)
      = relu (dense (masked x5 x13) (fun n => x6 (ix1 n))
          (fun k => val_main_v15 (F := Ideal) x0 x1 x2 x3 x4 x11 x12 (ix2 r k)) n) := by
  rw [val_main_v23_apply, val_main_v22_apply, val_main_v19_apply, val_main_v21_apply, val_main_v20_apply,
    val_main_call2_v0_apply, val_main_call2_cst_apply]
  simp only [val_main_v18_apply, val_main_v17_apply, val_main_v16_apply]
  have e1 : ∀ k, lidx_main_v19 (ix2 r n) k = ix2 r k := fun k => by idx2_eq
  have e2 : ∀ k, idx_main_v18 (ridx_main_v19 (ix2 r n) k) = ix2 n k := fun k => by idx2_eq
  have e3 : idx_main_v20 (idx_main_v21 (ix2 r n)) = ix1 n := by idx1_eq
  simp only [e1, e2, e3]
  rfl

/-- The fourth hidden layer at `(r, n)`, over the third layer's row `r`. -/
theorem layer4 (r : Fin 16384) (n : Fin 2048) :
    val_main_v31 (F := Ideal) x0 x1 x2 x3 x4 x5 x6 x7 x8 x11 x12 x13 x14 (ix2 r n)
      = relu (dense (masked x7 x14) (fun n => x8 (ix1 n))
          (fun k => val_main_v23 (F := Ideal) x0 x1 x2 x3 x4 x5 x6 x11 x12 x13 (ix2 r k)) n) := by
  rw [val_main_v31_apply, val_main_v30_apply, val_main_v27_apply, val_main_v29_apply, val_main_v28_apply,
    val_main_call3_v0_apply, val_main_call3_cst_apply]
  simp only [val_main_v26_apply, val_main_v25_apply, val_main_v24_apply]
  have e1 : ∀ k, lidx_main_v27 (ix2 r n) k = ix2 r k := fun k => by idx2_eq
  have e2 : ∀ k, idx_main_v26 (ridx_main_v27 (ix2 r n) k) = ix2 n k := fun k => by idx2_eq
  have e3 : idx_main_v28 (idx_main_v29 (ix2 r n)) = ix1 n := by idx1_eq
  simp only [e1, e2, e3]
  rfl

/-- The last layer at `(r, j)`, over the fourth layer's row `r`: no mask, no rectifier. -/
theorem layer5 (r : Fin 16384) (j : Fin 10) :
    val_main_v36 (F := Ideal) x0 x1 x2 x3 x4 x5 x6 x7 x8 x9 x10 x11 x12 x13 x14 (ix2 r j)
      = dense (fun n k => x9 (ix2 n k)) (fun n => x10 (ix1 n))
          (fun k => val_main_v31 (F := Ideal) x0 x1 x2 x3 x4 x5 x6 x7 x8 x11 x12 x13 x14 (ix2 r k)) j := by
  rw [val_main_v36_apply, val_main_v33_apply, val_main_v35_apply, val_main_v34_apply]
  simp only [val_main_v32_apply]
  have e1 : ∀ k, lidx_main_v33 (ix2 r j) k = ix2 r k := fun k => by idx2_eq
  have e2 : ∀ k, idx_main_v32 (ridx_main_v33 (ix2 r j) k) = ix2 j k := fun k => by idx2_eq
  have e3 : idx_main_v34 (idx_main_v35 (ix2 r j)) = ix1 j := by idx1_eq
  simp only [e1, e2, e3]
  rfl

/-- The reference's result is the network applied row by row. -/
theorem result_eq :
    val_main_v36 (F := Ideal) x0 x1 x2 x3 x4 x5 x6 x7 x8 x9 x10 x11 x12 x13 x14
      = G x0 x1 x2 x3 x4 x5 x6 x7 x8 x9 x10 x11 x12 x13 x14 := by
  funext i
  obtain ⟨r, j, rfl⟩ : ∃ (r : Fin 16384) (j : Fin 10), i = ix2 r j := ⟨i 0, i 1, eq_ix2 i⟩
  rw [layer5]
  simp only [layer4, layer3, layer2, layer1]
  rfl

end Cert.ReferenceIdeal.RefValue

end
-- ==== Proof.Body.lean ====
/-
  The kernel body's arithmetic on one batch tile, read at an index of the stored block. The body is five layers:
  a block product into a zero accumulator, a bias row broadcast over the tile's rows, their sum, and (for the four
  hidden layers) the larger of that and zero; between layers the activations change float format, which is the
  identity on the extended reals. Each block product read at `(p, n)` is the plain sum over the contraction
  coordinate; the weights are resident blocks stored input-major, so unit `n`'s weight for input `k` sits at `(k, n)`.
-/
import proofs.«155862_j77343771066811_2_alg».proof.Proof.Gen.KernelIdeal.Skeleton
import proofs.«155862_j77343771066811_2_alg».proof.Proof.Mlp
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Cert.Mlp
open Idealize.ShloMosaic Idealize.ShloMosaic.ValueIdx

/-- The block product `S1024x784 · S784x2048` into a zero accumulator, read at `(p, n)`: the sum over the contraction
    coordinate `k` of the left block at `(p, k)` times the right block at `(k, n)`. -/
theorem mm_in (l : FVec Ideal S1024x784 .bf16) (r : FVec Ideal S784x2048 .bf16) (p : Fin 1024) (n : Fin 2048) :
    matmul dot_S1024x784_S784x2048_S1024x2048_1_0_0_1_n_n none l r (constant S1024x2048 .f32 0x00000000#32) (ix2 p n)
      = ∑ k : Fin 784, l (ix2 p k) * r (ix2 k n) := by
  simp only [matmul]
  rw [Ideal.matmul_constant_zero_apply, ← Equiv.sum_comp (contrEquiv1 dot_S1024x784_S784x2048_S1024x2048_1_0_0_1_n_n 784 rfl rfl).symm]
  refine Finset.sum_congr rfl fun k _ => ?_
  have hk := contrEquiv1_symm_val dot_S1024x784_S784x2048_S1024x2048_1_0_0_1_n_n 784 rfl rfl k
  have l0 : ∀ q, (dot_S1024x784_S784x2048_S1024x2048_1_0_0_1_n_n.lhsIdx (ix2 p n) q 0).val = p.val := fun q => by
    unfold DotDims.lhsIdx
    rw [dif_neg (show ¬(0 : Fin S1024x784.rank) ∈ dot_S1024x784_S784x2048_S1024x2048_1_0_0_1_n_n.lhsBatch by decide),
      dif_pos (show (0 : Fin S1024x784.rank) ∈ dot_S1024x784_S784x2048_S1024x2048_1_0_0_1_n_n.lhsNonContracting by decide)]
    rfl
  have r1 : ∀ q, (dot_S1024x784_S784x2048_S1024x2048_1_0_0_1_n_n.rhsIdx (ix2 p n) q 1).val = n.val := fun q => by
    unfold DotDims.rhsIdx
    rw [dif_neg (show ¬(1 : Fin S784x2048.rank) ∈ dot_S1024x784_S784x2048_S1024x2048_1_0_0_1_n_n.rhsBatch by decide),
      dif_pos (show (1 : Fin S784x2048.rank) ∈ dot_S1024x784_S784x2048_S1024x2048_1_0_0_1_n_n.rhsNonContracting by decide)]
    rfl
  have el : dot_S1024x784_S784x2048_S1024x2048_1_0_0_1_n_n.lhsIdx (ix2 p n) ((contrEquiv1 dot_S1024x784_S784x2048_S1024x2048_1_0_0_1_n_n 784 rfl rfl).symm k) = ix2 p k :=
    funext fun a => Fin.ext (by
      match a with
      | ⟨0, _⟩ => exact l0 _
      | ⟨1, _⟩ => exact (dot_S1024x784_S784x2048_S1024x2048_1_0_0_1_n_n.lhsIdx_val_of_single rfl _ _).trans hk)
  have er : dot_S1024x784_S784x2048_S1024x2048_1_0_0_1_n_n.rhsIdx (ix2 p n) ((contrEquiv1 dot_S1024x784_S784x2048_S1024x2048_1_0_0_1_n_n 784 rfl rfl).symm k) = ix2 k n :=
    funext fun a => Fin.ext (by
      match a with
      | ⟨0, _⟩ => exact (dot_S1024x784_S784x2048_S1024x2048_1_0_0_1_n_n.rhsIdx_val_of_single rfl _ _).trans hk
      | ⟨1, _⟩ => exact r1 _)
  rw [el, er]

/-- The block product `S1024x2048 · S2048x2048` into a zero accumulator, read at `(p, n)`: the sum over the contraction
    coordinate `k` of the left block at `(p, k)` times the right block at `(k, n)`. -/
theorem mm_hid (l : FVec Ideal S1024x2048 .bf16) (r : FVec Ideal S2048x2048 .bf16) (p : Fin 1024) (n : Fin 2048) :
    matmul dot_S1024x2048_S2048x2048_S1024x2048_1_0_0_1_n_n none l r (constant S1024x2048 .f32 0x00000000#32) (ix2 p n)
      = ∑ k : Fin 2048, l (ix2 p k) * r (ix2 k n) := by
  simp only [matmul]
  rw [Ideal.matmul_constant_zero_apply, ← Equiv.sum_comp (contrEquiv1 dot_S1024x2048_S2048x2048_S1024x2048_1_0_0_1_n_n 2048 rfl rfl).symm]
  refine Finset.sum_congr rfl fun k _ => ?_
  have hk := contrEquiv1_symm_val dot_S1024x2048_S2048x2048_S1024x2048_1_0_0_1_n_n 2048 rfl rfl k
  have l0 : ∀ q, (dot_S1024x2048_S2048x2048_S1024x2048_1_0_0_1_n_n.lhsIdx (ix2 p n) q 0).val = p.val := fun q => by
    unfold DotDims.lhsIdx
    rw [dif_neg (show ¬(0 : Fin S1024x2048.rank) ∈ dot_S1024x2048_S2048x2048_S1024x2048_1_0_0_1_n_n.lhsBatch by decide),
      dif_pos (show (0 : Fin S1024x2048.rank) ∈ dot_S1024x2048_S2048x2048_S1024x2048_1_0_0_1_n_n.lhsNonContracting by decide)]
    rfl
  have r1 : ∀ q, (dot_S1024x2048_S2048x2048_S1024x2048_1_0_0_1_n_n.rhsIdx (ix2 p n) q 1).val = n.val := fun q => by
    unfold DotDims.rhsIdx
    rw [dif_neg (show ¬(1 : Fin S2048x2048.rank) ∈ dot_S1024x2048_S2048x2048_S1024x2048_1_0_0_1_n_n.rhsBatch by decide),
      dif_pos (show (1 : Fin S2048x2048.rank) ∈ dot_S1024x2048_S2048x2048_S1024x2048_1_0_0_1_n_n.rhsNonContracting by decide)]
    rfl
  have el : dot_S1024x2048_S2048x2048_S1024x2048_1_0_0_1_n_n.lhsIdx (ix2 p n) ((contrEquiv1 dot_S1024x2048_S2048x2048_S1024x2048_1_0_0_1_n_n 2048 rfl rfl).symm k) = ix2 p k :=
    funext fun a => Fin.ext (by
      match a with
      | ⟨0, _⟩ => exact l0 _
      | ⟨1, _⟩ => exact (dot_S1024x2048_S2048x2048_S1024x2048_1_0_0_1_n_n.lhsIdx_val_of_single rfl _ _).trans hk)
  have er : dot_S1024x2048_S2048x2048_S1024x2048_1_0_0_1_n_n.rhsIdx (ix2 p n) ((contrEquiv1 dot_S1024x2048_S2048x2048_S1024x2048_1_0_0_1_n_n 2048 rfl rfl).symm k) = ix2 k n :=
    funext fun a => Fin.ext (by
      match a with
      | ⟨0, _⟩ => exact (dot_S1024x2048_S2048x2048_S1024x2048_1_0_0_1_n_n.rhsIdx_val_of_single rfl _ _).trans hk
      | ⟨1, _⟩ => exact r1 _)
  rw [el, er]

/-- The block product `S1024x2048 · S2048x128` into a zero accumulator, read at `(p, n)`: the sum over the contraction
    coordinate `k` of the left block at `(p, k)` times the right block at `(k, n)`. -/
theorem mm_out (l : FVec Ideal S1024x2048 .bf16) (r : FVec Ideal S2048x128 .bf16) (p : Fin 1024) (n : Fin 128) :
    matmul dot_S1024x2048_S2048x128_S1024x128_1_0_0_1_n_n none l r (constant S1024x128 .f32 0x00000000#32) (ix2 p n)
      = ∑ k : Fin 2048, l (ix2 p k) * r (ix2 k n) := by
  simp only [matmul]
  rw [Ideal.matmul_constant_zero_apply, ← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have l0 : ∀ q, (dot_S1024x2048_S2048x128_S1024x128_1_0_0_1_n_n.lhsIdx (ix2 p n) q 0).val = p.val := fun q => by
    unfold DotDims.lhsIdx
    rw [dif_neg (show ¬(0 : Fin S1024x2048.rank) ∈ dot_S1024x2048_S2048x128_S1024x128_1_0_0_1_n_n.lhsBatch by decide),
      dif_pos (show (0 : Fin S1024x2048.rank) ∈ dot_S1024x2048_S2048x128_S1024x128_1_0_0_1_n_n.lhsNonContracting by decide)]
    rfl
  have r1 : ∀ q, (dot_S1024x2048_S2048x128_S1024x128_1_0_0_1_n_n.rhsIdx (ix2 p n) q 1).val = n.val := fun q => by
    unfold DotDims.rhsIdx
    rw [dif_neg (show ¬(1 : Fin S2048x128.rank) ∈ dot_S1024x2048_S2048x128_S1024x128_1_0_0_1_n_n.rhsBatch by decide),
      dif_pos (show (1 : Fin S2048x128.rank) ∈ dot_S1024x2048_S2048x128_S1024x128_1_0_0_1_n_n.rhsNonContracting by decide)]
    rfl
  have el : dot_S1024x2048_S2048x128_S1024x128_1_0_0_1_n_n.lhsIdx (ix2 p n) ((contrEquiv1 dot_S1024x2048_S2048x128_S1024x128_1_0_0_1_n_n 2048 rfl rfl).symm k) = ix2 p k :=
    funext fun a => Fin.ext (by
      match a with
      | ⟨0, _⟩ => exact l0 _
      | ⟨1, _⟩ => exact (dot_S1024x2048_S2048x128_S1024x128_1_0_0_1_n_n.lhsIdx_val_of_single rfl _ _).trans hk)
  have er : dot_S1024x2048_S2048x128_S1024x128_1_0_0_1_n_n.rhsIdx (ix2 p n) ((contrEquiv1 dot_S1024x2048_S2048x128_S1024x128_1_0_0_1_n_n 2048 rfl rfl).symm k) = ix2 k n :=
    funext fun a => Fin.ext (by
      match a with
      | ⟨0, _⟩ => exact (dot_S1024x2048_S2048x128_S1024x128_1_0_0_1_n_n.rhsIdx_val_of_single rfl _ _).trans hk
      | ⟨1, _⟩ => exact r1 _)
  rw [el, er]

/-- The first hidden layer of the body on a batch tile, read at `(p, n)`: the tile's row `p` against column `n` of the resident weights (stored input-major), plus the bias at `n`, rectified. The change of float format before the product is the identity on the extended reals. -/
theorem hidden_in (h : FVec Ideal S1024x784 .f32) (w : Vec Ideal S784x2048 .bf16) (b : Vec Ideal S2048 .f32)
    (hb : FTy.bits .bf16 < FTy.bits .f32) (hw : S784x2048.ShapeCasts S784x2048) (hc : S2048.ShapeCasts S1x2048)
    (hbr : S1x2048.Broadcasts S1024x2048) (p : Fin 1024) (n : Fin 2048) :
    maximumf (addf (matmul dot_S1024x784_S784x2048_S1024x2048_1_0_0_1_n_n none (truncf .bf16 h hb) (shapeCast S784x2048 w hw : FVec Ideal S784x2048 .bf16) (constant S1024x2048 .f32 0x00000000#32))
        (broadcastTo S1024x2048 (shapeCast S1x2048 b hc) hbr))
      (broadcast S1024x2048 (Scalar.ofBits .f32 0x00000000#32)) (ix2 p n)
      = relu (dense (fun n k => w (ix2 k n)) (fun n => b (ix1 n)) (fun k => h (ix2 p k)) n) := by
  rw [maximumf_apply, addf_apply, mm_in, shapeCast_self, broadcastTo_1b_ab_apply, shapeCast_a_1a_apply, broadcast_apply]
  rfl

/-- A later hidden layer of the body, read at `(p, n)`: the same over the previous layer's activations. -/
theorem hidden_hid (h : FVec Ideal S1024x2048 .f32) (w : Vec Ideal S2048x2048 .bf16) (b : Vec Ideal S2048 .f32)
    (hb : FTy.bits .bf16 < FTy.bits .f32) (hw : S2048x2048.ShapeCasts S2048x2048) (hc : S2048.ShapeCasts S1x2048)
    (hbr : S1x2048.Broadcasts S1024x2048) (p : Fin 1024) (n : Fin 2048) :
    maximumf (addf (matmul dot_S1024x2048_S2048x2048_S1024x2048_1_0_0_1_n_n none (truncf .bf16 h hb) (shapeCast S2048x2048 w hw : FVec Ideal S2048x2048 .bf16) (constant S1024x2048 .f32 0x00000000#32))
        (broadcastTo S1024x2048 (shapeCast S1x2048 b hc) hbr))
      (broadcast S1024x2048 (Scalar.ofBits .f32 0x00000000#32)) (ix2 p n)
      = relu (dense (fun n k => w (ix2 k n)) (fun n => b (ix1 n)) (fun k => h (ix2 p k)) n) := by
  rw [maximumf_apply, addf_apply, mm_hid, shapeCast_self, broadcastTo_1b_ab_apply, shapeCast_a_1a_apply, broadcast_apply]
  rfl

/-- The output layer of the body, read at `(p, q)`: row `p` of the last hidden activations against column `q`
    of the widened output weights, plus the widened bias at `q`; no rectifier. -/
theorem output_layer (h : FVec Ideal S1024x2048 .f32) (w : Vec Ideal S2048x128 .bf16) (b : Vec Ideal S128 .f32)
    (hb : FTy.bits .bf16 < FTy.bits .f32) (hw : S2048x128.ShapeCasts S2048x128) (hs : S128.ShapeCasts S128)
    (hc : S128.ShapeCasts S1x128) (hbr : S1x128.Broadcasts S1024x128) (p : Fin 1024) (q : Fin 128) :
    addf (matmul dot_S1024x2048_S2048x128_S1024x128_1_0_0_1_n_n none (truncf .bf16 h hb) (shapeCast S2048x128 w hw : FVec Ideal S2048x128 .bf16) (constant S1024x128 .f32 0x00000000#32))
        (broadcastTo S1024x128 (shapeCast S1x128 (shapeCast S128 b hs) hc) hbr) (ix2 p q)
      = dense (fun n k => w (ix2 k n)) (fun n => b (ix1 n)) (fun k => h (ix2 p k)) q := by
  rw [addf_apply, mm_out, shapeCast_self, shapeCast_self, broadcastTo_1b_ab_apply, shapeCast_a_1a_apply]
  rfl

/-! ## The body's stored value at an index -/

/-- What the body stores for one batch tile, read at `(p, q)`: the network of the specification applied to row
    `p` of the tile, its layers' weights the resident blocks read input-major, at output unit `q` of the widened
    last layer. The body's payload is five layers nested; each is read by its lemma above, innermost last. -/
theorem payload_apply (v0 : Vec Ideal S1024x784 .f32) (v2 : Vec Ideal S784x2048 .bf16) (v5 : Vec Ideal S2048 .f32)
    (v12 : Vec Ideal S2048x2048 .bf16) (v15 : Vec Ideal S2048 .f32) (v22 : Vec Ideal S2048x2048 .bf16)
    (v25 : Vec Ideal S2048 .f32) (v32 : Vec Ideal S2048x2048 .bf16) (v35 : Vec Ideal S2048 .f32)
    (v42 : Vec Ideal S2048x128 .bf16) (v45 : Vec Ideal S128 .f32) (p : Fin 1024) (q : Fin 128) :
    k0_pay1 (F := Ideal) (k0_pay2 v0 v2 v5 v12 v15 v22 v25 v32) (k0_pay3 v35) v42 v45 (ix2 p q)
      = net (fun n k => v2 (ix2 k n)) (fun n => v5 (ix1 n)) (fun n k => v12 (ix2 k n)) (fun n => v15 (ix1 n))
          (fun n k => v22 (ix2 k n)) (fun n => v25 (ix1 n)) (fun n k => v32 (ix2 k n)) (fun n => v35 (ix1 n))
          (fun n k => v42 (ix2 k n)) (fun n => v45 (ix1 n)) (fun k => v0 (ix2 p k)) q := by
  unfold k0_pay1 k0_pay2 k0_pay3
  dsimp only
  rw [output_layer]
  simp only [hidden_hid, hidden_in]
  rfl

end Cert.KernelIdeal.Body

end
-- ==== Proof.Blocks.lean ====
/-
  From the body's stored block to the whole output array. The grid has sixteen points; at point `t` the batch
  tile is rows `1024 · t … 1024 · t + 1023` of the input and the body's result is flushed to the same rows of the
  output, every other operand being one resident block that is the whole of its array. So each point writes back
  a block of ONE whole-array function (the widened result), and the sixteen blocks cover the output's rows.
-/
import proofs.«155862_j77343771066811_2_alg».proof.Proof.Gen.KernelIdeal.Frame
import proofs.«155862_j77343771066811_2_alg».proof.Proof.Body
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.Mlp
open Idealize.ShloMosaic Idealize.ShloMosaic.ValueIdx Idealize.ShloMosaic.TcCoe Idealize.SL.Sem
open Idealize.ShloMosaic.Pipeline (Dat Cfg Window)

variable (m : (ℓ : Loc nD τ sig) → Buf (Elt Ideal) ℓ)

/-! ## The index maps over the grid

The batch tile's window and the output's window move with the grid point along the rows, `1024` rows a step; every
other window stays on its one block. Decided once over the sixteen points. -/

theorem hz2 : (![0, 0] : Fin 2 → Nat) = fun _ => 0 := funext fun a => by fin_cases a <;> rfl
theorem hz1 : (![0] : Fin 1 → Nat) = fun _ => 0 := funext fun a => by fin_cases a; rfl

/-- A grid point is one of sixteen. -/
theorem point_lt (t : Fin cfg0.N) : t.val < 16 := t.isLt

theorem idx_moving : ∀ t : Fin cfg0.N, win0_0.index t (0 : Fin 2) = t.val ∧ win0_0.index t (1 : Fin 2) = 0
    ∧ win0_11.index t (0 : Fin 2) = t.val ∧ win0_11.index t (1 : Fin 2) = 0 :=
  (by decide +kernel : ∀ t : Fin grid0.N, _)

theorem idx_resident2 : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem idx_resident1 : ∀ t : Fin cfg0.N, win0_6.index t (0 : Fin 1) = 0 ∧ win0_7.index t (0 : Fin 1) = 0
    ∧ win0_8.index t (0 : Fin 1) = 0 ∧ win0_9.index t (0 : Fin 1) = 0 ∧ win0_10.index t (0 : Fin 1) = 0 :=
  (by decide +kernel : ∀ t : Fin grid0.N, _)

/-- Row `p` of grid point `t`'s tile is row `1024 · t + p` of the whole batch. -/
def row (t : Fin cfg0.N) (p : Fin 1024) : Fin 16384 :=
  ⟨t.val * 1024 + p.val, by have := point_lt t; have := p.isLt; omega⟩

/-! ## Each window's block at a point, read at coordinates -/

/-- The batch tile at point `t`, read at `(p, k)`: the input matrix at row `1024 · t + p`. -/
theorem iblk0_apply (c : Dev nD) (t : Fin cfg0.N) (p : Fin 1024) (k : Fin 784) :
    iblk m c 0 t (ix2 p k) = (V m c main_arg0 : S16384x784.Idx → EReal) (ix2 (row t p) k) := by
  show (V m c main_arg0 : S16384x784.Idx → EReal) (((cfg0.win 0).blk t).view.emb (ix2 p k)) = _
  refine congrArg _ (funext fun a => Fin.ext ?_)
  obtain ⟨e0, e1, -, -⟩ := idx_moving t
  match a with
  | ⟨0, _⟩ => show win0_0.index t (0 : Fin 2) * 1024 + 1 * p.val = t.val * 1024 + p.val; omega
  | ⟨1, _⟩ => show win0_0.index t (1 : Fin 2) * 784 + 1 * k.val = k.val; omega

/-- Window 1's resident block is its whole array. -/
theorem iblk1_apply (c : Dev nD) (t : Fin cfg0.N) (k : Fin 784) (n : Fin 2048) :
    iblk m c 1 t (ix2 k n) = (V m c main_v3 : S784x2048.Idx → EReal) (ix2 k n) := by
  show (V m c main_v3 : S784x2048.Idx → EReal) (((cfg0.win 1).blk t).view.emb (ix2 k n)) = _
  refine congrArg _ (funext fun a => Fin.ext ?_)
  obtain ⟨e0, e1, -, -, -, -, -, -, -, -⟩ := idx_resident2 t
  match a with
  | ⟨0, _⟩ => show win0_1.index t (0 : Fin 2) * 784 + 1 * k.val = k.val; omega
  | ⟨1, _⟩ => show win0_1.index t (1 : Fin 2) * 2048 + 1 * n.val = n.val; omega

/-- Window 2's resident block is its whole array. -/
theorem iblk2_apply (c : Dev nD) (t : Fin cfg0.N) (k : Fin 2048) (n : Fin 2048) :
    iblk m c 2 t (ix2 k n) = (V m c main_v7 : S2048x2048.Idx → EReal) (ix2 k n) := by
  show (V m c main_v7 : S2048x2048.Idx → EReal) (((cfg0.win 2).blk t).view.emb (ix2 k n)) = _
  refine congrArg _ (funext fun a => Fin.ext ?_)
  obtain ⟨-, -, e0, e1, -, -, -, -, -, -⟩ := idx_resident2 t
  match a with
  | ⟨0, _⟩ => show win0_2.index t (0 : Fin 2) * 2048 + 1 * k.val = k.val; omega
  | ⟨1, _⟩ => show win0_2.index t (1 : Fin 2) * 2048 + 1 * n.val = n.val; omega

/-- Window 3's resident block is its whole array. -/
theorem iblk3_apply (c : Dev nD) (t : Fin cfg0.N) (k : Fin 2048) (n : Fin 2048) :
    iblk m c 3 t (ix2 k n) = (V m c main_v11 : S2048x2048.Idx → EReal) (ix2 k n) := by
  show (V m c main_v11 : S2048x2048.Idx → EReal) (((cfg0.win 3).blk t).view.emb (ix2 k n)) = _
  refine congrArg _ (funext fun a => Fin.ext ?_)
  obtain ⟨-, -, -, -, e0, e1, -, -, -, -⟩ := idx_resident2 t
  match a with
  | ⟨0, _⟩ => show win0_3.index t (0 : Fin 2) * 2048 + 1 * k.val = k.val; omega
  | ⟨1, _⟩ => show win0_3.index t (1 : Fin 2) * 2048 + 1 * n.val = n.val; omega

/-- Window 4's resident block is its whole array. -/
theorem iblk4_apply (c : Dev nD) (t : Fin cfg0.N) (k : Fin 2048) (n : Fin 2048) :
    iblk m c 4 t (ix2 k n) = (V m c main_v15 : S2048x2048.Idx → EReal) (ix2 k n) := by
  show (V m c main_v15 : S2048x2048.Idx → EReal) (((cfg0.win 4).blk t).view.emb (ix2 k n)) = _
  refine congrArg _ (funext fun a => Fin.ext ?_)
  obtain ⟨-, -, -, -, -, -, e0, e1, -, -⟩ := idx_resident2 t
  match a with
  | ⟨0, _⟩ => show win0_4.index t (0 : Fin 2) * 2048 + 1 * k.val = k.val; omega
  | ⟨1, _⟩ => show win0_4.index t (1 : Fin 2) * 2048 + 1 * n.val = n.val; omega

/-- Window 5's resident block is its whole array. -/
theorem iblk5_apply (c : Dev nD) (t : Fin cfg0.N) (k : Fin 2048) (n : Fin 128) :
    iblk m c 5 t (ix2 k n) = (V m c main_v19 : S2048x128.Idx → EReal) (ix2 k n) := by
  show (V m c main_v19 : S2048x128.Idx → EReal) (((cfg0.win 5).blk t).view.emb (ix2 k n)) = _
  refine congrArg _ (funext fun a => Fin.ext ?_)
  obtain ⟨-, -, -, -, -, -, -, -, e0, e1⟩ := idx_resident2 t
  match a with
  | ⟨0, _⟩ => show win0_5.index t (0 : Fin 2) * 2048 + 1 * k.val = k.val; omega
  | ⟨1, _⟩ => show win0_5.index t (1 : Fin 2) * 128 + 1 * n.val = n.val; omega

/-- Window 6's resident block is its whole array. -/
theorem iblk6_apply (c : Dev nD) (t : Fin cfg0.N) (n : Fin 2048) :
    iblk m c 6 t (ix1 n) = (V m c main_arg2 : S2048.Idx → EReal) (ix1 n) := by
  show (V m c main_arg2 : S2048.Idx → EReal) (((cfg0.win 6).blk t).view.emb (ix1 n)) = _
  refine congrArg _ (funext fun a => Fin.ext ?_)
  obtain ⟨e0, -, -, -, -⟩ := idx_resident1 t
  match a with
  | ⟨0, _⟩ => show win0_6.index t (0 : Fin 1) * 2048 + 1 * n.val = n.val; omega

/-- Window 7's resident block is its whole array. -/
theorem iblk7_apply (c : Dev nD) (t : Fin cfg0.N) (n : Fin 2048) :
    iblk m c 7 t (ix1 n) = (V m c main_arg4 : S2048.Idx → EReal) (ix1 n) := by
  show (V m c main_arg4 : S2048.Idx → EReal) (((cfg0.win 7).blk t).view.emb (ix1 n)) = _
  refine congrArg _ (funext fun a => Fin.ext ?_)
  obtain ⟨-, e0, -, -, -⟩ := idx_resident1 t
  match a with
  | ⟨0, _⟩ => show win0_7.index t (0 : Fin 1) * 2048 + 1 * n.val = n.val; omega

/-- Window 8's resident block is its whole array. -/
theorem iblk8_apply (c : Dev nD) (t : Fin cfg0.N) (n : Fin 2048) :
    iblk m c 8 t (ix1 n) = (V m c main_arg6 : S2048.Idx → EReal) (ix1 n) := by
  show (V m c main_arg6 : S2048.Idx → EReal) (((cfg0.win 8).blk t).view.emb (ix1 n)) = _
  refine congrArg _ (funext fun a => Fin.ext ?_)
  obtain ⟨-, -, e0, -, -⟩ := idx_resident1 t
  match a with
  | ⟨0, _⟩ => show win0_8.index t (0 : Fin 1) * 2048 + 1 * n.val = n.val; omega

/-- Window 9's resident block is its whole array. -/
theorem iblk9_apply (c : Dev nD) (t : Fin cfg0.N) (n : Fin 2048) :
    iblk m c 9 t (ix1 n) = (V m c main_arg8 : S2048.Idx → EReal) (ix1 n) := by
  show (V m c main_arg8 : S2048.Idx → EReal) (((cfg0.win 9).blk t).view.emb (ix1 n)) = _
  refine congrArg _ (funext fun a => Fin.ext ?_)
  obtain ⟨-, -, -, e0, -⟩ := idx_resident1 t
  match a with
  | ⟨0, _⟩ => show win0_9.index t (0 : Fin 1) * 2048 + 1 * n.val = n.val; omega

/-- Window 10's resident block is its whole array. -/
theorem iblk10_apply (c : Dev nD) (t : Fin cfg0.N) (n : Fin 128) :
    iblk m c 10 t (ix1 n) = (V m c main_v17 : S128.Idx → EReal) (ix1 n) := by
  show (V m c main_v17 : S128.Idx → EReal) (((cfg0.win 10).blk t).view.emb (ix1 n)) = _
  refine congrArg _ (funext fun a => Fin.ext ?_)
  obtain ⟨-, -, -, -, e0⟩ := idx_resident1 t
  match a with
  | ⟨0, _⟩ => show win0_10.index t (0 : Fin 1) * 128 + 1 * n.val = n.val; omega

/-! ## The output array, block by block -/

/-- The widened result: entry `(r, q)` is unit `q` of the network's output — its last layer the widened one —
    for row `r` of the input, over the arrays as the region finds them. -/
def wide (c : Dev nD) : S16384x128.Idx → EReal := fun i =>
  net (fun n k => (V m c main_v3 : S784x2048.Idx → EReal) (ix2 k n)) (fun n => (V m c main_arg2 : S2048.Idx → EReal) (ix1 n))
    (fun n k => (V m c main_v7 : S2048x2048.Idx → EReal) (ix2 k n)) (fun n => (V m c main_arg4 : S2048.Idx → EReal) (ix1 n))
    (fun n k => (V m c main_v11 : S2048x2048.Idx → EReal) (ix2 k n)) (fun n => (V m c main_arg6 : S2048.Idx → EReal) (ix1 n))
    (fun n k => (V m c main_v15 : S2048x2048.Idx → EReal) (ix2 k n)) (fun n => (V m c main_arg8 : S2048.Idx → EReal) (ix1 n))
    (fun n k => (V m c main_v19 : S2048x128.Idx → EReal) (ix2 k n)) (fun n => (V m c main_v17 : S128.Idx → EReal) (ix1 n))
    (fun k => (V m c main_arg0 : S16384x784.Idx → EReal) (ix2 (i 0) k)) (i 1)

/-- The widened result at `(r, q)`, its coordinates named. -/
theorem wide_apply (c : Dev nD) (r : Fin 16384) (q : Fin 128) :
    wide m c (ix2 r q)
      = net (fun n k => (V m c main_v3 : S784x2048.Idx → EReal) (ix2 k n)) (fun n => (V m c main_arg2 : S2048.Idx → EReal) (ix1 n))
          (fun n k => (V m c main_v7 : S2048x2048.Idx → EReal) (ix2 k n)) (fun n => (V m c main_arg4 : S2048.Idx → EReal) (ix1 n))
          (fun n k => (V m c main_v11 : S2048x2048.Idx → EReal) (ix2 k n)) (fun n => (V m c main_arg6 : S2048.Idx → EReal) (ix1 n))
          (fun n k => (V m c main_v15 : S2048x2048.Idx → EReal) (ix2 k n)) (fun n => (V m c main_arg8 : S2048.Idx → EReal) (ix1 n))
          (fun n k => (V m c main_v19 : S2048x128.Idx → EReal) (ix2 k n)) (fun n => (V m c main_v17 : S128.Idx → EReal) (ix1 n))
          (fun k => (V m c main_arg0 : S16384x784.Idx → EReal) (ix2 r k)) q := rfl

/-- What grid point `t` writes back is block `t` of the widened result: the body's stored value at `(p, q)` is the
    network on row `p` of the tile, which is row `1024 · t + p` of the input, and the output's block at `t` starts
    at that same row. -/
theorem flushed_eq (c : Dev nD) (t : Fin cfg0.N) :
    (dats m 0 c).flushed 11 t = ((cfg0.win 11).blk t).view.read (Elt Ideal) (wide m c) := by
  show (cfg0.win 11).cut (grid0.coords t) ((dats m 0 c).after 11 t) = _
  rw [after0_11]
  unfold out0_11
  rw [View.canon_unit_zero hz2]
  simp only [View.ld_unit_zero (S := S1024x784) hz2, View.ld_unit_zero (S := S784x2048) hz2,
    View.ld_unit_zero (S := S2048x2048) hz2, View.ld_unit_zero (S := S2048x128) hz2,
    View.ld_unit_zero (S := S2048) hz1, View.ld_unit_zero (S := S128) hz1]
  show (fun j : S1024x128.Idx => k0_pay1 (F := Ideal) (k0_pay2 (iblk m c 0 t) (iblk m c 1 t) (iblk m c 6 t) (iblk m c 2 t)
      (iblk m c 7 t) (iblk m c 3 t) (iblk m c 8 t) (iblk m c 4 t)) (k0_pay3 (iblk m c 9 t)) (iblk m c 5 t) (iblk m c 10 t) j)
    = fun j : S1024x128.Idx => wide m c (((cfg0.win 11).blk t).view.emb j)
  funext j
  obtain ⟨p, q, rfl⟩ : ∃ (p : Fin 1024) (q : Fin 128), j = ix2 p q := ⟨j 0, j 1, eq_ix2 j⟩
  refine (Body.payload_apply (iblk m c 0 t) (iblk m c 1 t) (iblk m c 6 t) (iblk m c 2 t) (iblk m c 7 t) (iblk m c 3 t)
    (iblk m c 8 t) (iblk m c 4 t) (iblk m c 9 t) (iblk m c 5 t) (iblk m c 10 t) p q).trans ?_
  have hj : ((cfg0.win 11).blk t).view.emb (ix2 p q) = ix2 (row t p) q := by
    funext a; apply Fin.ext
    obtain ⟨-, -, e0, e1⟩ := idx_moving t
    match a with
    | ⟨0, _⟩ => show win0_11.index t (0 : Fin 2) * 1024 + 1 * p.val = t.val * 1024 + p.val; omega
    | ⟨1, _⟩ => show win0_11.index t (1 : Fin 2) * 128 + 1 * q.val = q.val; omega
  rw [hj]
  unfold wide
  simp only [iblk0_apply, iblk1_apply, iblk2_apply, iblk3_apply, iblk4_apply, iblk5_apply, iblk6_apply, iblk7_apply,
    iblk8_apply, iblk9_apply, iblk10_apply]

/-- An index of the output array lies in point `t`'s block iff each coordinate is in the block's range. -/
theorem mem_blk (t : Fin cfg0.N) (i : S16384x128.Idx) :
    i ∈ ((cfg0.win 11).blk t).view.set ↔ ∀ a : Fin 2, win0_11.index t a * S1024x128.size a ≤ (i a).val
      ∧ (i a).val < win0_11.index t a * S1024x128.size a + S1024x128.size a := by
  show i ∈ ((View.whole main_v20).slice (win0_11.rect t)).set ↔ _
  rw [View.set_slice_whole, Rect.mem_set_unit]
  exact Iff.rfl

/-- Every row of the output lies in some point's block: row `r` in the block of point `r / 1024`. -/
theorem cover (i : S16384x128.Idx) :
    ∃ t : Fin cfg0.N, (cfg0.win 11).flush t = true ∧ i ∈ ((cfg0.win 11).blk t).view.set := by
  have h0 : (i 0).val < 16384 := (i 0).isLt
  have h1 : (i 1).val < 128 := (i 1).isLt
  have ht : (i 0).val / 1024 < 16 := by omega
  refine ⟨⟨(i 0).val / 1024, ht⟩, flush0_11 _, ?_⟩
  rw [mem_blk]
  obtain ⟨-, -, e0, e1⟩ := idx_moving ⟨(i 0).val / 1024, ht⟩
  intro a
  match a with
  | ⟨0, _⟩ =>
    show win0_11.index ⟨(i 0).val / 1024, ht⟩ (0 : Fin 2) * 1024 ≤ (i 0).val
      ∧ (i 0).val < win0_11.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_11.index ⟨(i 0).val / 1024, ht⟩ (1 : Fin 2) * 128 ≤ (i 1).val
      ∧ (i 1).val < win0_11.index ⟨(i 0).val / 1024, ht⟩ (1 : Fin 2) * 128 + 128
    rw [e1]; omega

/-- So the output array ends holding the widened result. -/
theorem final (c : Dev nD) : (dats m 0 c).arrAt 11 cfg0.N = wide m c :=
  (dats m 0 c).arrAt_eq_of_cover 11 (wide m c) (fun t _ => flushed_eq m c t) (cover)

end Cert.KernelIdeal.Blocks

end
-- ==== Proof.Entry.lean ====
/-
  What the kernel's windows find in their arrays when the region is entered. The host lines before the call fold
  each sparsity mask into its weight matrix, change the float format (the identity on the extended reals) and
  transpose the result, so the staged matrix at `(k, n)` is the masked weight of unit `n` for input `k`; the output
  layer's weights and bias are first widened from 10 to 128 units by padding, and read at one of the first ten
  units they are the original weights and bias.
-/
import proofs.«155862_j77343771066811_2_alg».proof.Proof.Gen.KernelIdeal.Frame
import Idealize.ShloMosaic.Lib.StableHlo.Run
import Idealize.ShloMosaic.Lib.ValueLayout
import Idealize.ShloMosaic.Lib.KernelVsHost
import proofs.«155862_j77343771066811_2_alg».proof.Proof.Mlp

noncomputable section

namespace Cert.KernelIdeal.Entry

open Cert.KernelIdeal Cert.KernelIdeal.Gen Cert.Mlp
open Idealize.ShloMosaic Idealize.ShloMosaic.ValueIdx Idealize.ShloMosaic.TcCoe Idealize.SL.Sem Idealize.ShloMosaic.StableHlo

variable (m : (ℓ : Loc nD τ sig) → Buf (Elt Ideal) ℓ)

/-- The array window 1 stages: the masked weights `main_arg1 · main_arg11`, changed of float format and transposed. -/
theorem V_main_v3 (c : Dev nD) :
    (V m c main_v3 : S784x2048.Idx → EReal)
      = (transpose S784x2048 [1, 0] (truncf (F := Ideal) .bf16 (mulf (F := Ideal) (m ((c : Thread nD τ).loc main_arg1)) (uitofp (F := Ideal) .f32 (m ((c : Thread nD τ).loc main_arg11))))
          Facts₀.bitsLt_bf16_f32) Facts₀.transposes_S2048x784_S784x2048_1_0 : S784x2048.Idx → EReal) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results

/-- Read at `(k, n)`: unit `n`'s masked weight for input `k`. -/
theorem main_v3_apply (c : Dev nD) (k : Fin 784) (n : Fin 2048) :
    (V m c main_v3 : S784x2048.Idx → EReal) (ix2 k n) = masked (m ((c : Thread nD τ).loc main_arg1)) (m ((c : Thread nD τ).loc main_arg11)) n k := by
  rw [V_main_v3, transpose_ix2_apply]
  rfl

/-- The array window 2 stages: the masked weights `main_arg3 · main_arg12`, changed of float format and transposed. -/
theorem V_main_v7 (c : Dev nD) :
    (V m c main_v7 : S2048x2048.Idx → EReal)
      = (transpose S2048x2048 [1, 0] (truncf (F := Ideal) .bf16 (mulf (F := Ideal) (m ((c : Thread nD τ).loc main_arg3)) (uitofp (F := Ideal) .f32 (m ((c : Thread nD τ).loc main_arg12))))
          Facts₀.bitsLt_bf16_f32) Facts₀.transposes_S2048x2048_S2048x2048_1_0 : S2048x2048.Idx → EReal) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results

/-- Read at `(k, n)`: unit `n`'s masked weight for input `k`. -/
theorem main_v7_apply (c : Dev nD) (k : Fin 2048) (n : Fin 2048) :
    (V m c main_v7 : S2048x2048.Idx → EReal) (ix2 k n) = masked (m ((c : Thread nD τ).loc main_arg3)) (m ((c : Thread nD τ).loc main_arg12)) n k := by
  rw [V_main_v7, transpose_ix2_apply]
  rfl

/-- The array window 3 stages: the masked weights `main_arg5 · main_arg13`, changed of float format and transposed. -/
theorem V_main_v11 (c : Dev nD) :
    (V m c main_v11 : S2048x2048.Idx → EReal)
      = (transpose S2048x2048 [1, 0] (truncf (F := Ideal) .bf16 (mulf (F := Ideal) (m ((c : Thread nD τ).loc main_arg5)) (uitofp (F := Ideal) .f32 (m ((c : Thread nD τ).loc main_arg13))))
          Facts₀.bitsLt_bf16_f32) Facts₀.transposes_S2048x2048_S2048x2048_1_0 : S2048x2048.Idx → EReal) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results

/-- Read at `(k, n)`: unit `n`'s masked weight for input `k`. -/
theorem main_v11_apply (c : Dev nD) (k : Fin 2048) (n : Fin 2048) :
    (V m c main_v11 : S2048x2048.Idx → EReal) (ix2 k n) = masked (m ((c : Thread nD τ).loc main_arg5)) (m ((c : Thread nD τ).loc main_arg13)) n k := by
  rw [V_main_v11, transpose_ix2_apply]
  rfl

/-- The array window 4 stages: the masked weights `main_arg7 · main_arg14`, changed of float format and transposed. -/
theorem V_main_v15 (c : Dev nD) :
    (V m c main_v15 : S2048x2048.Idx → EReal)
      = (transpose S2048x2048 [1, 0] (truncf (F := Ideal) .bf16 (mulf (F := Ideal) (m ((c : Thread nD τ).loc main_arg7)) (uitofp (F := Ideal) .f32 (m ((c : Thread nD τ).loc main_arg14))))
          Facts₀.bitsLt_bf16_f32) Facts₀.transposes_S2048x2048_S2048x2048_1_0 : S2048x2048.Idx → EReal) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results

/-- Read at `(k, n)`: unit `n`'s masked weight for input `k`. -/
theorem main_v15_apply (c : Dev nD) (k : Fin 2048) (n : Fin 2048) :
    (V m c main_v15 : S2048x2048.Idx → EReal) (ix2 k n) = masked (m ((c : Thread nD τ).loc main_arg7)) (m ((c : Thread nD τ).loc main_arg14)) n k := by
  rw [V_main_v15, transpose_ix2_apply]
  rfl

/-- The array window 5 stages: the output weights widened from 10 to 128 units by padding, changed of float format
    and transposed. -/
theorem V_main_v19 (c : Dev nD) :
    (V m c main_v19 : S2048x128.Idx → EReal)
      = (transpose S2048x128 [1, 0] (truncf (F := Ideal) .bf16
          (pad S128x2048 ![0, 0] ![118, 0] ![0, 0] (m ((c : Thread nD τ).loc main_arg9)) (sitofp (F := Ideal) .f32 (constantI S_ 32 0#32))
            Facts₀.pads_S10x2048_S128x2048_01180_000 Facts₀.h_S_) Facts₀.bitsLt_bf16_f32)
          Facts₀.transposes_S128x2048_S2048x128_1_0 : S2048x128.Idx → EReal) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

/-- Read at `(k, q)` for one of the first ten units `q`: that unit's own weight for input `k` (the padding lies
    beyond unit 9). -/
theorem main_v19_apply (c : Dev nD) (k : Fin 2048) (q : Fin 128) (j : Fin 10) (hq : q.val = j.val) :
    (V m c main_v19 : S2048x128.Idx → EReal) (ix2 k q) = (m ((c : Thread nD τ).loc main_arg9)) (ix2 j k) := by
  rw [V_main_v19, transpose_ix2_apply, truncf_apply]
  refine pad_apply_of_inside _ _ _ _ _ _ _ (ix2 q k) (ix2 j k) fun a => ?_
  match a with
  | ⟨0, _⟩ => show q.val = 0 + j.val * (0 + 1); omega
  | ⟨1, _⟩ => show k.val = 0 + k.val * (0 + 1); omega

/-- The array window 10 stages: the output bias widened from 10 to 128 entries by padding. -/
theorem V_main_v17 (c : Dev nD) :
    (V m c main_v17 : S128.Idx → EReal)
      = (pad S128 ![0] ![118] ![0] (m ((c : Thread nD τ).loc main_arg10)) (sitofp (F := Ideal) .f32 (constantI S_ 32 0#32))
          Facts₀.pads_S10_S128_01180 Facts₀.h_S_ : S128.Idx → EReal) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

/-- Read at one of the first ten entries: the bias itself. -/
theorem main_v17_apply (c : Dev nD) (q : Fin 128) (j : Fin 10) (hq : q.val = j.val) :
    (V m c main_v17 : S128.Idx → EReal) (ix1 q) = (m ((c : Thread nD τ).loc main_arg10)) (ix1 j) := by
  rw [V_main_v17]
  refine pad_apply_of_inside _ _ _ _ _ _ _ (ix1 q) (ix1 j) fun a => ?_
  match a with
  | ⟨0, _⟩ => show q.val = 0 + j.val * (0 + 1); omega

end Cert.KernelIdeal.Entry

end
-- ==== Proof.Result.lean ====
/-
  The kernel's result. After the region one host line cuts the output array's 128 columns down to the first ten;
  the output array holds the widened result (Proof/Blocks.lean), whose first ten columns are the specification's
  result of the argument arrays, because the staged weights are the masked weights (Proof/Entry.lean) and the
  widening only adds units beyond the tenth. Then the generated frame run is read at the result and at each argument.
-/
import proofs.«155862_j77343771066811_2_alg».proof.Proof.Gen.KernelIdeal.Frame
import proofs.«155862_j77343771066811_2_alg».proof.Proof.Blocks
import proofs.«155862_j77343771066811_2_alg».proof.Proof.Entry
import Idealize.ShloMosaic.Lib.StableHlo.Run
import Idealize.ShloMosaic.Lib.ValueLayout

noncomputable section

namespace Cert.KernelIdeal.Result

open Cert.KernelIdeal Cert.KernelIdeal.Gen Cert.Mlp
open Idealize.ShloMosaic Idealize.ShloMosaic.ValueIdx Idealize.ShloMosaic.TcCoe Idealize.SL.Sem Idealize.ShloMosaic.StableHlo

variable (m : (ℓ : Loc nD τ sig) → Buf (Elt Ideal) ℓ)

/-! ## After the region: the slice -/

/-- The one host line after the region keeps the first ten of the output array's 128 columns; the array it reads
    is the region's output, which ends holding the widened result. -/
theorem tail_eq (c : Dev nD) :
    (Pipeline.afterTail₀ cfgs (dats m) 0 (V0 m) [hostOps1] c main_v21 : S16384x10.Idx → EReal)
      = (extractStridedSlice S16384x10 ![0, 0] (Blocks.wide m c) Facts₀.slices_S16384x128_S16384x10_0_0 :
          S16384x10.Idx → EReal) := by
  unfold Pipeline.afterTail₀
  show StableHlo.after hostOps1 _ (Proc.devRef .tc main_v21) = _
  after_results
  exact congrArg (fun X => extractStridedSlice S16384x10 ![0, 0] X Facts₀.slices_S16384x128_S16384x10_0_0)
    ((Pipeline.withArrays_arr spec0 launch0.win.arr_inj c (V0 m c) (fun w => (dats m 0 c).arrAt w (cfgs 0).N) 11).trans
      (Blocks.final m c))

/-- The first ten columns of the widened result are the specification's result of the arguments: the hidden
    layers' staged weights are the masked weights, and unit `j < 10` of the widened last layer has the original
    weights and bias — the padded units lie beyond the slice. -/
theorem wide_slice (c : Dev nD) :
    (extractStridedSlice S16384x10 ![0, 0] (Blocks.wide m c) Facts₀.slices_S16384x128_S16384x10_0_0 :
        S16384x10.Idx → EReal)
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  funext i
  obtain ⟨r, j, rfl⟩ : ∃ (r : Fin 16384) (j : Fin 10), i = ix2 r j := ⟨i 0, i 1, eq_ix2 i⟩
  have hj : j.val < 128 := by have := j.isLt; omega
  rw [slice2_axis1_apply 0 (Blocks.wide m c) _ r j ⟨j.val, hj⟩ (Nat.zero_add _).symm]
  rw [Blocks.wide_apply, G_apply]
  unfold net
  have e1 : (fun (n : Fin 2048) (k : Fin 784) => (V m c main_v3 : S784x2048.Idx → EReal) (ix2 k n))
      = masked (m ((c : Thread nD τ).loc main_arg1)) (m ((c : Thread nD τ).loc main_arg11)) :=
    funext fun n => funext fun k => Entry.main_v3_apply m c k n
  have e2 : (fun (n : Fin 2048) (k : Fin 2048) => (V m c main_v7 : S2048x2048.Idx → EReal) (ix2 k n))
      = masked (m ((c : Thread nD τ).loc main_arg3)) (m ((c : Thread nD τ).loc main_arg12)) :=
    funext fun n => funext fun k => Entry.main_v7_apply m c k n
  have e3 : (fun (n : Fin 2048) (k : Fin 2048) => (V m c main_v11 : S2048x2048.Idx → EReal) (ix2 k n))
      = masked (m ((c : Thread nD τ).loc main_arg5)) (m ((c : Thread nD τ).loc main_arg13)) :=
    funext fun n => funext fun k => Entry.main_v11_apply m c k n
  have e4 : (fun (n : Fin 2048) (k : Fin 2048) => (V m c main_v15 : S2048x2048.Idx → EReal) (ix2 k n))
      = masked (m ((c : Thread nD τ).loc main_arg7)) (m ((c : Thread nD τ).loc main_arg14)) :=
    funext fun n => funext fun k => Entry.main_v15_apply m c k n
  have f1 : (fun (n : Fin 2048) => (V m c main_arg2 : S2048.Idx → EReal) (ix1 n))
      = fun (n : Fin 2048) => (m ((c : Thread nD τ).loc main_arg2)) (ix1 n) :=
    funext fun n => congrFun (V_main_arg2 m c) (ix1 n)
  have f2 : (fun (n : Fin 2048) => (V m c main_arg4 : S2048.Idx → EReal) (ix1 n))
      = fun (n : Fin 2048) => (m ((c : Thread nD τ).loc main_arg4)) (ix1 n) :=
    funext fun n => congrFun (V_main_arg4 m c) (ix1 n)
  have f3 : (fun (n : Fin 2048) => (V m c main_arg6 : S2048.Idx → EReal) (ix1 n))
      = fun (n : Fin 2048) => (m ((c : Thread nD τ).loc main_arg6)) (ix1 n) :=
    funext fun n => congrFun (V_main_arg6 m c) (ix1 n)
  have f4 : (fun (n : Fin 2048) => (V m c main_arg8 : S2048.Idx → EReal) (ix1 n))
      = fun (n : Fin 2048) => (m ((c : Thread nD τ).loc main_arg8)) (ix1 n) :=
    funext fun n => congrFun (V_main_arg8 m c) (ix1 n)
  have g0 : (fun (k : Fin 784) => (V m c main_arg0 : S16384x784.Idx → EReal) (ix2 r k))
      = fun (k : Fin 784) => (m ((c : Thread nD τ).loc main_arg0)) (ix2 r k) :=
    funext fun k => congrFun (V_main_arg0 m c) (ix2 r k)
  rw [e1, e2, e3, e4, f1, f2, f3, f4, g0]
  exact dense_congr_unit _ _ _ _ _ j ⟨j.val, hj⟩ (fun k => Entry.main_v19_apply m c k ⟨j.val, hj⟩ j rfl)
    (Entry.main_v17_apply m c ⟨j.val, hj⟩ j rfl)

/-! ## The kernel's run, read -/

/-- Every weakly fair execution of the idealized kernel terminates with the specification's result of the
    arguments in its result array, the arguments unchanged: the generated frame run, its post read at the result
    (the tail's line over the region's output array) and at each argument (a staged input is never written back;
    an array no window stages is untouched). -/
theorem run (ρ : Dev nD → PrngReg) :
    θ_run defs (onTc (τ := τ) (main (F := Ideal))) ⟨m, fun _ => 0, ρ⟩ (fun r => ∀ c : Dev nD,
      r.2.mem ((c.tc : Thread nD τ).loc main_v21) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(((h c).2 main_v21 (Pipeline.mem_restRefs_of main_v21 (by decide) (by decide))).trans (tail_eq m c)).trans
        (wide_slice m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 6).trans (((dats m 0 c).arrAt_in 6 rfl _).trans ((A_eq m c 6).trans (V_main_arg2 m c))),
      ((h c).2 main_arg3 (Pipeline.mem_restRefs_of main_arg3 (by decide) (by decide))).trans (W_main_arg3 m (dats m) c),
      ((h c).1 7).trans (((dats m 0 c).arrAt_in 7 rfl _).trans ((A_eq m c 7).trans (V_main_arg4 m c))),
      ((h c).2 main_arg5 (Pipeline.mem_restRefs_of main_arg5 (by decide) (by decide))).trans (W_main_arg5 m (dats m) c),
      ((h c).1 8).trans (((dats m 0 c).arrAt_in 8 rfl _).trans ((A_eq m c 8).trans (V_main_arg6 m c))),
      ((h c).2 main_arg7 (Pipeline.mem_restRefs_of main_arg7 (by decide) (by decide))).trans (W_main_arg7 m (dats m) c),
      ((h c).1 9).trans (((dats m 0 c).arrAt_in 9 rfl _).trans ((A_eq m c 9).trans (V_main_arg8 m c))),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c)⟩)
    (run_main m ρ)

end Cert.KernelIdeal.Result

end
-- ==== Proof.lean ====
/-
  The certificate of a five-layer masked perceptron: a Pallas kernel that keeps the masked, transposed weights
  resident and streams the batch in tiles of 1024 rows, against the plain jnp network.

  On the extended reals both programs compute, for every row `r` of the input and every output unit `j`, the same
  nest of sums: four hidden layers `max (∑ₖ hₖ · (W n k · mask n k) + bₙ) 0` and a last layer without mask or
  rectifier (`Cert.Mlp.G`). The kernel differs from the reference only in arrangement — the masks are folded into
  the weights, and the weights transposed, on the host before the call; the activations change float format
  between layers (the identity here); the last layer is widened from 10 to 128 units by zero padding and the
  extra columns cut off after the call; the batch is processed a tile at a time — and none of that changes a sum,
  so the equality needs no finiteness of the inputs. The idealization rewrote nothing, so `preserves` is trivial.

  The three frames are the generated ones (the reference's is its generated run with the result dropped). For
  `algebraic`, the kernel's run is read in Proof/Body.lean (the body's arithmetic at an index), Proof/Entry.lean
  (the staged arrays at region entry), Proof/Blocks.lean (blocks to the whole output array) and Proof/Result.lean
  (the slice after the region, and the run); the reference's in Proof/RefValue.lean over its generated stages.
-/
import proofs.«155862_j77343771066811_2_alg».proof.Defs
import proofs.«155862_j77343771066811_2_alg».proof.Proof.Gen.Kernel
import proofs.«155862_j77343771066811_2_alg».proof.Proof.Gen.Kernel.Skeleton
import proofs.«155862_j77343771066811_2_alg».proof.Proof.Gen.Kernel.Launch
import proofs.«155862_j77343771066811_2_alg».proof.Proof.Gen.Kernel.Points
import proofs.«155862_j77343771066811_2_alg».proof.Proof.Gen.Kernel.Frame
import proofs.«155862_j77343771066811_2_alg».proof.Proof.Gen.KernelIdeal
import proofs.«155862_j77343771066811_2_alg».proof.Proof.Gen.KernelIdeal.Skeleton
import proofs.«155862_j77343771066811_2_alg».proof.Proof.Gen.KernelIdeal.Launch
import proofs.«155862_j77343771066811_2_alg».proof.Proof.Gen.KernelIdeal.Points
import proofs.«155862_j77343771066811_2_alg».proof.Proof.Gen.KernelIdeal.Frame
import proofs.«155862_j77343771066811_2_alg».proof.Proof.Gen.ReferenceIdeal
import proofs.«155862_j77343771066811_2_alg».proof.Proof.Gen.Pre_finite_inputs
import proofs.«155862_j77343771066811_2_alg».proof.Proof.Gen.ReferenceIdeal.Run
import proofs.«155862_j77343771066811_2_alg».proof.Proof.Gen.ReferenceIdeal.Read
import proofs.«155862_j77343771066811_2_alg».proof.Proof.RefValue
import proofs.«155862_j77343771066811_2_alg».proof.Proof.Result
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference launches no kernel: its frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of this kernel. -/
theorem preserves : Cert.preserves_Kernel_KernelIdeal := trivial

/-- Both runs end with the network of the specification applied to the argument arrays: the kernel's by its run
    read (Proof/Result.lean), the reference's by its generated run, its last stage being that function
    (Proof/RefValue.lean), at arguments that agree. -/
theorem algebraic : Cert.algebraic_KernelIdeal_ReferenceIdeal := by
  intro m ρ m' ρ' _ hagree
  refine ⟨fun c => Cert.Mlp.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)),
    Cert.KernelIdeal.Result.run m ρ, ?_⟩
  refine (θ_run Cert.ReferenceIdeal.defs _ _).mono (fun _ h c => ⟨?_, (h c).2⟩)
    (Cert.ReferenceIdeal.Value.run (F := Ideal) m' ρ')
  obtain ⟨a0, a1, a2, a3, a4, a5, a6, a7, a8, a9, a10, a11, a12, a13, a14⟩ := hagree c
  rw [(h c).1, Cert.ReferenceIdeal.Read.val_main_v36_eq, Cert.ReferenceIdeal.RefValue.result_eq,
    a0, a1, a2, a3, a4, a5, a6, a7, a8, a9, a10, a11, a12, a13, a14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
